-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S256x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) (main_arg7 : FVec F S4096x4096 .f32) (main_arg8 : FVec F S4096x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_v13 main_v16
-- ==== Kernel.lean ====
abbrev S256x4096 : Shape := ⟨2, ![256, 4096]⟩
abbrev S4096x4096 : Shape := ⟨2, ![4096, 4096]⟩
abbrev S4096 : Shape := ⟨1, ![4096]⟩
abbrev S64x128 : Shape := ⟨2, ![64, 128]⟩
abbrev S256x1024 : Shape := ⟨2, ![256, 1024]⟩
abbrev S512x1024 : Shape := ⟨2, ![512, 1024]⟩
abbrev S512 : Shape := ⟨1, ![512]⟩
abbrev S256x512 : Shape := ⟨2, ![256, 512]⟩
abbrev S8x128 : Shape := ⟨2, ![8, 128]⟩
abbrev S1x1 : Shape := ⟨2, ![1, 1]⟩
abbrev S512x1 : Shape := ⟨2, ![512, 1]⟩
abbrev S1 : Shape := ⟨1, ![1]⟩
abbrev S1x512 : Shape := ⟨2, ![1, 512]⟩
abbrev S_ : Shape := ⟨0, ![]⟩

abbrev nBuf : Space → Nat
  | .hbm => 13
  | .vmem => 24
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S256x4096, .f32⟩
  | .hbm, ⟨10, _⟩ => ⟨S64x128, .f32⟩
  | .hbm, ⟨11, _⟩ => ⟨S_, .f32⟩
  | .hbm, ⟨12, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S256x512, .f32⟩
  | .local _ .vmem, ⟨19, _⟩ => ⟨S256x512, .f32⟩
  | .local _ .vmem, ⟨20, _⟩ => ⟨S8x128, .f32⟩
  | .local _ .vmem, ⟨21, _⟩ => ⟨S8x128, .f32⟩
  | .local _ .vmem, ⟨22, _⟩ => ⟨S256x512, .f32⟩
  | .local _ .vmem, ⟨23, _⟩ => ⟨S1x1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_cst : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x4096.size a
  hwx0_4 : ∀ i : grid0.Coords, EltTy.bits .f32 = 32 ∨ (Rect.block (s := S4096x4096) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x4096.size a
  hwx0_5 : ∀ i : grid0.Coords, EltTy.bits .f32 = 32 ∨ (Rect.block (s := S4096x4096) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S4096.size a
  hwx0_6 : ∀ i : grid0.Coords, EltTy.bits .f32 = 32 ∨ (Rect.block (s := S4096) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S4096.size a
  hwx0_7 : ∀ i : grid0.Coords, EltTy.bits .f32 = 32 ∨ (Rect.block (s := S4096) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S4096.size a
  hwx0_8 : ∀ i : grid0.Coords, EltTy.bits .f32 = 32 ∨ (Rect.block (s := S4096) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x4096.size a
  hwx0_9 : ∀ i : grid0.Coords, EltTy.bits .f32 = 32 ∨ (Rect.block (s := S256x4096) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S64x128.size a
  hwx0_10 : ∀ i : grid0.Coords, EltTy.bits .f32 = 32 ∨ (Rect.block (s := S64x128) S8x128.size (cc0_transform_10 i) (hinb0_10 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .i1⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S256x4096, .f32⟩
  | .hbm, ⟨42, _⟩ => ⟨S1x4096, .f32⟩
  | .hbm, ⟨43, _⟩ => ⟨S256x4096, .f32⟩
  | .hbm, ⟨44, _⟩ => ⟨S256x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S_, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_0 : Ref sig .tc := ⟨.hbm, 57, rfl⟩
abbrev main_v21 : Ref sig .tc := ⟨.hbm, 58, rfl⟩
abbrev main_v22 : Ref sig .tc := ⟨.hbm, 59, rfl⟩
abbrev main_cst_1 : Ref sig .tc := ⟨.hbm, 60, rfl⟩
abbrev main_v23 : Ref sig .tc := ⟨.hbm, 61, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  reducesTo_S4096x4096_S_d0_1 : S4096x4096.ReducesTo [0, 1] S_
  h_S_ : 0 < S_.numel
  dot_S256x4096_S4096x4096_S256x4096_1_1_0_0_n_n_wf : DotDims.WF S256x4096 S4096x4096 S256x4096 [1] [1] [0] [0] [] []

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

class Facts : Prop extends Facts₀ where

variable [Facts]
-- ==== Proof.LibTiles.lean ====
/-
  General lemmas for sums over tiles of an array.

  A rank-2 array read at a pair of natural numbers (`at2`: zero outside the array) and a rank-1 array read at a natural
  number (`at1`), with the lemmas that identify them with the array at an index whose coordinates have those values;
  a sum over a range of length `m · n` as `m` consecutive runs of length `n` (`sum_range_mul`), which turns a sum over
  a whole axis into a sum over blocks and positions inside a block; and a sum over `Fin n` of a function of the value
  as the sum over `Finset.range n` (`sum_fin_range`). Nothing here mentions a program.
-/
import Idealize.ShloMosaic.PureOps.Ideal
import Idealize.ShloMosaic.Lib.ValueIdx

noncomputable section

open scoped BigOperators

namespace Cert.Proof.Spec

open Idealize.ShloMosaic Idealize.ShloMosaic.ValueIdx

/-! ## Arrays read at natural-number positions -/

/-- A matrix at row `R`, column `C`; zero outside it. -/
def at2 {n0 n1 : Nat} (x : (⟨2, ![n0, n1]⟩ : Shape).Idx → EReal) (R C : ℕ) : EReal :=
  if h : R < n0 ∧ C < n1 then x (ix2 ⟨R, h.1⟩ ⟨C, h.2⟩) else 0

/-- A vector at position `R`; zero outside it. -/
def at1 {n : Nat} (x : (⟨1, ![n]⟩ : Shape).Idx → EReal) (R : ℕ) : EReal :=
  if h : R < n then x (ix1 ⟨R, h⟩) else 0

theorem at2_ix2 {n0 n1 : Nat} (x : (⟨2, ![n0, n1]⟩ : Shape).Idx → EReal) (a : Fin n0) (b : Fin n1) :
    at2 x a.val b.val = x (ix2 a b) := by
  unfold at2; rw [dif_pos ⟨a.isLt, b.isLt⟩]

theorem at1_ix1 {n : Nat} (x : (⟨1, ![n]⟩ : Shape).Idx → EReal) (a : Fin n) : at1 x a.val = x (ix1 a) := by
  unfold at1; rw [dif_pos a.isLt]

/-- An index given by the values of its two coordinates. -/
theorem at2_of_val {n0 n1 : Nat} (x : (⟨2, ![n0, n1]⟩ : Shape).Idx → EReal) (i : (⟨2, ![n0, n1]⟩ : Shape).Idx)
    (R C : ℕ) (h0 : (i 0).val = R) (h1 : (i 1).val = C) : x i = at2 x R C := by
  subst h0; subst h1
  exact (congrArg x (eq_ix2 i)).trans (at2_ix2 x (i 0) (i 1)).symm

theorem at1_of_val {n : Nat} (x : (⟨1, ![n]⟩ : Shape).Idx → EReal) (i : (⟨1, ![n]⟩ : Shape).Idx)
    (R : ℕ) (h0 : (i 0).val = R) : x i = at1 x R := by
  subst h0
  exact (congrArg x (eq_ix1 i)).trans (at1_ix1 x (i 0)).symm

/-! ## Sums -/

section Sums
variable {M : Type*} [AddCommMonoid M]

/-- A range of length `m · n` is `m` consecutive runs of length `n`. -/
theorem sum_range_mul (f : ℕ → M) (m n : ℕ) :
    ∑ i ∈ Finset.range (m * n), f i = ∑ a ∈ Finset.range m, ∑ b ∈ Finset.range n, f (n * a + b) := by
  induction m with
  | zero => simp
  | succ m ih =>
    rw [Nat.succ_mul, Finset.sum_range_add, ih, Finset.sum_range_succ, Nat.mul_comm m n]

/-- A sum over `Fin n` of a function of the value is the sum over the range. -/
theorem sum_fin_range (f : ℕ → M) (n : ℕ) : ∑ i : Fin n, f i.val = ∑ i ∈ Finset.range n, f i :=
  Fin.sum_univ_eq_sum_range f n

end Sums

end Cert.Proof.Spec

end
-- ==== Proof.Spec.lean ====
/-
  The mathematics both programs compute, on the extended reals, with no program in sight.

  One element of the layer: the softplus `sp ρ = max ρ 0 + log (1 + exp (-|ρ|))` (the guard `x ≠ x` both programs carry
  in front of it never fires on the extended reals, which have no NaN), the sampled weight `μ + sp ρ · ε`, and the
  Gaussian KL term `log (σₚ / σ) + (σ² + (μ - μₚ)²) / (2 σₚ²) - 1/2` with `σ = sp ρ`.

  The arrays are read at natural-number positions (`at2`, `at1`: zero outside the array), so that sums over blocks are
  sums over `Finset.range` and a block's offset is plain addition; a range of length `m · n` splits into `m` consecutive
  runs of length `n`. The law special to this layer is here: `1024` copies of `s / 1024` add up to `s` for every
  extended real `s`, the infinities included.
-/
import Idealize.ShloMosaic.PureOps.Ideal
import Idealize.ShloMosaic.PureOps.Ideal.Laws
import Idealize.ShloMosaic.Lib.ValueIdx
import proofs.«136558_j19774029431036_1_alg».proof.Proof.LibTiles

noncomputable section

open scoped BigOperators

namespace Cert.Proof.Spec

open Idealize.ShloMosaic Idealize.ShloMosaic.ValueIdx

/-! ## One element -/

/-- The float zero both programs splat. -/
abbrev zw : EReal := Ideal.ofBits .f32 0x00000000#32
/-- `2.0`, `0.5` and `1024.0` as the programs spell them. -/
abbrev two : EReal := Ideal.ofBits .f32 0x40000000#32
abbrev half : EReal := Ideal.ofBits .f32 0x3F000000#32
abbrev k1024 : EReal := Ideal.ofBits .f32 0x44800000#32

theorem zw_eq : zw = 0 := Ideal.ofBits_zero_f32

/-- `1024.0` denotes the real 1024. -/
theorem k1024_eq : k1024 = ((1024 : ℝ) : EReal) := by
  simp [k1024, Ideal.ofBits, Ideal.ieee, -EReal.coe_mul]; norm_num

/-- The softplus, in the kernel's spelling: `max ρ 0 + log1p (exp (0 - |ρ - 0|))`. -/
def sp (r : EReal) : EReal := max r zw + Ideal.log1p (Ideal.exp (zw - max (r - zw) (-(r - zw))))

/-- "Not equal to itself" is false on the extended reals, ordered or unordered. -/
theorem cmp_one_self (x : EReal) : Ideal.cmp .one x x = 0#1 := by simp [Ideal.cmp]
theorem cmp_une_self (x : EReal) : Ideal.cmp .une x x = 0#1 := by simp [Ideal.cmp]

/-- The guarded softplus of the kernel is `sp`. -/
theorem sp_guard_one (r : EReal) :
    Scalar.select (Ideal.cmp .one (r - zw) (r - zw)) (r + zw)
      (max r zw + Ideal.log1p (Ideal.exp (zw - max (r - zw) (-(r - zw))))) = sp r := by
  rw [cmp_one_self, select_zero]; rfl

/-- The guarded softplus of the reference — it negates where the kernel subtracts from zero — is `sp` too. -/
theorem sp_guard_une (r : EReal) :
    Scalar.select (Ideal.cmp .une (r - zw) (r - zw)) (r + zw)
      (max r zw + Ideal.log1p (Ideal.exp (-(max (r - zw) (-(r - zw)))))) = sp r := by
  rw [cmp_une_self, select_zero]
  unfold sp
  have e : ∀ y : EReal, zw - y = -y := fun y => by rw [zw_eq, sub_eq_add_neg, zero_add]
  rw [e]

/-- The sampled weight (and, on vectors of length one, the sampled bias). -/
def wgt (mu rho eps : EReal) : EReal := mu + sp rho * eps

/-- The KL term of one weight. -/
def klel (mu rho pmu psig : EReal) : EReal :=
  (Ideal.log (Ideal.div psig (sp rho)) + Ideal.div (sp rho * sp rho + (mu - pmu) * (mu - pmu)) (two * (psig * psig))) - half

/-- `1024` copies of `s / 1024` add up to `s`: for a real by arithmetic, and an infinity divided by 1024 is that
    infinity, as is any number of copies of it. -/
theorem sum_copies_div (s : EReal) : ∑ _i ∈ Finset.range 1024, Ideal.div s k1024 = s := by
  rw [Finset.sum_const, Finset.card_range, EReal.nsmul_eq_mul, k1024_eq, Ideal.div_coe (by norm_num)]
  rw [mul_comm s, ← mul_assoc]
  have : ((1024 : ℕ) : EReal) * ((1 / 1024 : ℝ) : EReal) = 1 := by
    rw [show ((1024 : ℕ) : EReal) = ((1024 : ℝ) : EReal) by norm_cast, ← EReal.coe_mul]; norm_num
  rw [this, one_mul]

/-! ## The layer at natural-number positions, tile by tile

The grid has 8 × 4 points, point `n` working on rows `512 (n / 4) …` of the weight-shaped arrays and columns
`1024 (n % 4) …`. The accumulator after point `n` holds the tiles `0 … n % 4` of its row of the grid; so does the KL partial. -/

section Layer
variable (X : (⟨2, ![256, 4096]⟩ : Shape).Idx → EReal)
  (WMU WRHO EPS PMU PSIG : (⟨2, ![4096, 4096]⟩ : Shape).Idx → EReal)
  (BMU BRHO BEPS : (⟨1, ![4096]⟩ : Shape).Idx → EReal)

/-- The sampled weight at `(R, C)`, the KL term at `(R, C)`, the sampled bias at `R`. -/
def Wn (R C : ℕ) : EReal := wgt (at2 WMU R C) (at2 WRHO R C) (at2 EPS R C)
def KLn (R C : ℕ) : EReal := klel (at2 WMU R C) (at2 WRHO R C) (at2 PMU R C) (at2 PSIG R C)
def Bn (R : ℕ) : EReal := wgt (at1 BMU R) (at1 BRHO R) (at1 BEPS R)

/-- Tile `(o, k)`'s share of `out[b, 512 o + r]`: the columns `1024 k … 1024 k + 1023` of the contraction. -/
def dotTile (o k b r : ℕ) : EReal :=
  ∑ q ∈ Finset.range 1024, at2 X b (1024 * k + q) * Wn WMU WRHO EPS (512 * o + r) (1024 * k + q)

/-- Tile `(o, k)`'s share of the KL sum. -/
def klTile (o k : ℕ) : EReal :=
  ∑ r ∈ Finset.range 512, ∑ q ∈ Finset.range 1024, KLn WMU WRHO PMU PSIG (512 * o + r) (1024 * k + q)

/-- The accumulator at `(b, r)` and the KL partial after point `n`. -/
def accN (n b r : ℕ) : EReal := ∑ k ∈ Finset.range (n % 4 + 1), dotTile X WMU WRHO EPS (n / 4) k b r
def klN (n : ℕ) : EReal := ∑ k ∈ Finset.range (n % 4 + 1), klTile WMU WRHO PMU PSIG (n / 4) k

theorem accN_first (n b r : ℕ) (h : n % 4 = 0) :
    accN X WMU WRHO EPS n b r = 0 + dotTile X WMU WRHO EPS (n / 4) (n % 4) b r := by
  unfold accN; rw [h, Finset.sum_range_one, zero_add]

theorem accN_step (n b r : ℕ) (h : n % 4 ≠ 0) :
    accN X WMU WRHO EPS n b r = accN X WMU WRHO EPS (n - 1) b r + dotTile X WMU WRHO EPS (n / 4) (n % 4) b r := by
  unfold accN
  have h1 : (n - 1) % 4 + 1 = n % 4 := by omega
  have h2 : (n - 1) / 4 = n / 4 := by omega
  rw [Finset.sum_range_succ, h1, h2]

theorem klN_first (n : ℕ) (h : n % 4 = 0) :
    klN WMU WRHO PMU PSIG n = 0 + klTile WMU WRHO PMU PSIG (n / 4) (n % 4) := by
  unfold klN; rw [h, Finset.sum_range_one, zero_add]

theorem klN_step (n : ℕ) (h : n % 4 ≠ 0) :
    klN WMU WRHO PMU PSIG n = klN WMU WRHO PMU PSIG (n - 1) + klTile WMU WRHO PMU PSIG (n / 4) (n % 4) := by
  unfold klN
  have h1 : (n - 1) % 4 + 1 = n % 4 := by omega
  have h2 : (n - 1) / 4 = n / 4 := by omega
  rw [Finset.sum_range_succ, h1, h2]

/-- After the last point of row `o` of the grid the accumulator holds the whole contraction. -/
theorem accN_last (o b r : ℕ) :
    accN X WMU WRHO EPS (4 * o + 3) b r = ∑ i ∈ Finset.range 4096, at2 X b i * Wn WMU WRHO EPS (512 * o + r) i := by
  unfold accN dotTile
  have h1 : (4 * o + 3) % 4 + 1 = 4 := by omega
  have h2 : (4 * o + 3) / 4 = o := by omega
  rw [h1, h2]
  exact (sum_range_mul (fun i => at2 X b i * Wn WMU WRHO EPS (512 * o + r) i) 4 1024).symm

/-- The KL partials of the eight rows of the grid add up to the KL sum over the whole matrix. -/
theorem klN_total :
    ∑ o ∈ Finset.range 8, klN WMU WRHO PMU PSIG (4 * o + 3)
      = ∑ R ∈ Finset.range 4096, ∑ C ∈ Finset.range 4096, KLn WMU WRHO PMU PSIG R C := by
  rw [show (4096 : ℕ) = 8 * 512 from rfl, sum_range_mul (fun R => ∑ C ∈ Finset.range (8 * 512), KLn WMU WRHO PMU PSIG R C) 8 512]
  refine Finset.sum_congr rfl fun o _ => ?_
  unfold klN klTile
  have h1 : (4 * o + 3) % 4 + 1 = 4 := by omega
  have h2 : (4 * o + 3) / 4 = o := by omega
  rw [h1, h2, Finset.sum_comm]
  refine Finset.sum_congr rfl fun r _ => ?_
  rw [show (8 * 512 : ℕ) = 4 * 1024 from rfl]
  exact (sum_range_mul (fun C => KLn WMU WRHO PMU PSIG (512 * o + r) C) 4 1024).symm

/-- The kernel's KL output — an [64, 128] array whose rows `8 o … 8 o + 7` all hold row `o`'s partial divided by
    1024 — sums to the same total: each partial comes back from its 1024 copies. -/
theorem kl_out_total :
    ∑ a ∈ Finset.range 64, ∑ _c ∈ Finset.range 128, Ideal.div (klN WMU WRHO PMU PSIG (4 * (a / 8) + 3)) k1024
      = ∑ o ∈ Finset.range 8, klN WMU WRHO PMU PSIG (4 * o + 3) := by
  rw [show (64 : ℕ) = 8 * 8 from rfl,
    sum_range_mul (fun a => ∑ _c ∈ Finset.range 128, Ideal.div (klN WMU WRHO PMU PSIG (4 * (a / 8) + 3)) k1024) 8 8]
  refine Finset.sum_congr rfl fun o _ => ?_
  have e : ∀ a' ∈ Finset.range 8, (∑ _c ∈ Finset.range 128, Ideal.div (klN WMU WRHO PMU PSIG (4 * ((8 * o + a') / 8) + 3)) k1024)
      = ∑ _c ∈ Finset.range 128, Ideal.div (klN WMU WRHO PMU PSIG (4 * o + 3)) k1024 := fun a' ha => by
    have : a' < 8 := Finset.mem_range.mp ha
    rw [show (8 * o + a') / 8 = o by omega]
  rw [Finset.sum_congr rfl e]
  rw [← sum_range_mul (fun _ => Ideal.div (klN WMU WRHO PMU PSIG (4 * o + 3)) k1024) 8 128]
  exact sum_copies_div _

end Layer

end Cert.Proof.Spec

end
-- ==== Proof.RefStages.lean ====
/-
  The reference program's two results as functions of its arguments, index by index.

  Its softplus — an outlined function, `max ρ 0 + log1p (exp (-|ρ - 0|))` behind the guard `x ≠ x` — is `sp` at every
  element; so its weight is `wgt`, its bias `wgt` on vectors, its KL element `klel`. The `dot_general` is the sum over
  the 4096 contracted positions, the bias is repeated over the batch by two broadcasts, and the final `reduce add`
  is the float zero plus the sum over all 4096 × 4096 elements.
-/
import proofs.«136558_j19774029431036_1_alg».proof.Defs
import proofs.«136558_j19774029431036_1_alg».proof.Proof.Gen.ReferenceIdeal.Run
import proofs.«136558_j19774029431036_1_alg».proof.Proof.Gen.ReferenceIdeal.Read
import proofs.«136558_j19774029431036_1_alg».proof.Proof.Spec

noncomputable section

open scoped BigOperators

namespace Cert.ReferenceIdeal.RefValue

open Idealize.ShloMosaic Idealize.ShloMosaic.ValueIdx
open Cert.ReferenceIdeal Cert.ReferenceIdeal.Read Cert.Proof.Spec

/-! ## One element -/

theorem softplus2 (x2 : FVec Ideal S4096x4096 .f32) (j : S4096x4096.Idx) : val_main_v0 (F := Ideal) x2 j = sp (x2 j) := by
  have b0 : val_main_call0_v0 (F := Ideal) j = zw := (val_main_call0_v0_apply j).trans rfl
  have b2 : val_main_call0_v2 (F := Ideal) j = zw := (val_main_call0_v2_apply j).trans rfl
  have b5 : val_main_call0_v5 (F := Ideal) j = zw := (val_main_call0_v5_apply j).trans rfl
  show Scalar.select (Ideal.cmp .une (x2 j - val_main_call0_v2 (F := Ideal) j) (x2 j - val_main_call0_v2 (F := Ideal) j))
      (x2 j + val_main_call0_v5 (F := Ideal) j)
      (max (x2 j) (val_main_call0_v0 (F := Ideal) j)
        + Ideal.log1p (Ideal.exp (-(max (x2 j - val_main_call0_v2 (F := Ideal) j) (-(x2 j - val_main_call0_v2 (F := Ideal) j)))))) = _
  rw [b0, b2, b5]
  exact sp_guard_une (x2 j)

theorem softplus1 (x4 : FVec Ideal S4096 .f32) (j : S4096.Idx) : val_main_v3 (F := Ideal) x4 j = sp (x4 j) := by
  have b0 : val_main_call1_v0 (F := Ideal) j = zw := (val_main_call1_v0_apply j).trans rfl
  have b2 : val_main_call1_v2 (F := Ideal) j = zw := (val_main_call1_v2_apply j).trans rfl
  have b5 : val_main_call1_v5 (F := Ideal) j = zw := (val_main_call1_v5_apply j).trans rfl
  show Scalar.select (Ideal.cmp .une (x4 j - val_main_call1_v2 (F := Ideal) j) (x4 j - val_main_call1_v2 (F := Ideal) j))
      (x4 j + val_main_call1_v5 (F := Ideal) j)
      (max (x4 j) (val_main_call1_v0 (F := Ideal) j)
        + Ideal.log1p (Ideal.exp (-(max (x4 j - val_main_call1_v2 (F := Ideal) j) (-(x4 j - val_main_call1_v2 (F := Ideal) j)))))) = _
  rw [b0, b2, b5]
  exact sp_guard_une (x4 j)

theorem weight_ref (x1 x2 x5 : FVec Ideal S4096x4096 .f32) (j : S4096x4096.Idx) :
    val_main_v2 (F := Ideal) x1 x2 x5 j = wgt (x1 j) (x2 j) (x5 j) := by
  show x1 j + val_main_v0 (F := Ideal) x2 j * x5 j = _
  rw [softplus2]; rfl

theorem bias_ref (x3 x4 x6 : FVec Ideal S4096 .f32) (j : S4096.Idx) :
    val_main_v5 (F := Ideal) x3 x4 x6 j = wgt (x3 j) (x4 j) (x6 j) := by
  show x3 j + val_main_v3 (F := Ideal) x4 j * x6 j = _
  rw [softplus1]; rfl

theorem kl_ref (x1 x2 x7 x8 : FVec Ideal S4096x4096 .f32) (j : S4096x4096.Idx) :
    val_main_v22 (F := Ideal) x1 x2 x7 x8 j = klel (x1 j) (x2 j) (x7 j) (x8 j) := by
  have b17 : val_main_v17 (F := Ideal) j = two := (val_main_v17_apply j).trans rfl
  have b21 : val_main_v21 (F := Ideal) j = half := (val_main_v21_apply j).trans rfl
  show (Ideal.log (Ideal.div (x8 j) (val_main_v0 (F := Ideal) x2 j))
      + Ideal.div (val_main_v0 (F := Ideal) x2 j * val_main_v0 (F := Ideal) x2 j + (x1 j - x7 j) * (x1 j - x7 j))
          (val_main_v17 (F := Ideal) j * (x8 j * x8 j))) - val_main_v21 (F := Ideal) j = _
  rw [b17, b21, softplus2]; rfl

/-! ## The two results -/

/-- The first result at `(b, j)`: the whole contraction against row `j` of the sampled weight, plus the sampled bias at `j`. -/
theorem out_ref (x0 : FVec Ideal S256x4096 .f32) (x1 x2 x5 : FVec Ideal S4096x4096 .f32) (x3 x4 x6 : FVec Ideal S4096 .f32)
    (i : S256x4096.Idx) :
    val_main_v9 (F := Ideal) x0 x1 x2 x3 x4 x5 x6 i
      = (∑ k ∈ Finset.range 4096, at2 x0 (i 0).val k * Wn x1 x2 x5 (i 1).val k) + Bn x3 x4 x6 (i 1).val := by
  show val_main_v6 (F := Ideal) x0 x1 x2 x5 i + val_main_v8 (F := Ideal) x3 x4 x6 i = _
  rw [val_main_v6_apply, val_main_v8_apply, val_main_v7_apply, bias_ref]
  congr 1
  · rw [← sum_fin_range (fun k => at2 x0 (i 0).val k * Wn x1 x2 x5 (i 1).val k) 4096]
    refine Finset.sum_congr rfl fun k _ => ?_
    rw [weight_ref]
    unfold Wn
    rw [at2_of_val (n0 := 256) (n1 := 4096) x0 (lidx_main_v6 i k) (i 0).val k.val rfl rfl,
      at2_of_val (n0 := 4096) (n1 := 4096) x1 (ridx_main_v6 i k) (i 1).val k.val rfl rfl,
      at2_of_val (n0 := 4096) (n1 := 4096) x2 (ridx_main_v6 i k) (i 1).val k.val rfl rfl,
      at2_of_val (n0 := 4096) (n1 := 4096) x5 (ridx_main_v6 i k) (i 1).val k.val rfl rfl]
  · unfold Bn
    rw [at1_of_val (n := 4096) x3 (idx_main_v7 (idx_main_v8 i)) (i 1).val rfl,
      at1_of_val (n := 4096) x4 (idx_main_v7 (idx_main_v8 i)) (i 1).val rfl,
      at1_of_val (n := 4096) x6 (idx_main_v7 (idx_main_v8 i)) (i 1).val rfl]

/-- The second result: the float zero plus the KL sum over the whole matrix. -/
theorem kl_total_ref (x1 x2 x7 x8 : FVec Ideal S4096x4096 .f32) (j : S_.Idx) :
    val_main_v23 (F := Ideal) x1 x2 x7 x8 j
      = zw + ∑ R ∈ Finset.range 4096, ∑ C ∈ Finset.range 4096, KLn x1 x2 x7 x8 R C := by
  rw [val_main_v23_apply]
  refine congrArg₂ (· + ·) rfl ?_
  rw [sum_idx2]
  rw [← sum_fin_range (fun R => ∑ C ∈ Finset.range 4096, KLn x1 x2 x7 x8 R C) 4096]
  refine Finset.sum_congr rfl fun a _ => ?_
  rw [← sum_fin_range (fun C => KLn x1 x2 x7 x8 a.val C) 4096]
  refine Finset.sum_congr rfl fun b _ => ?_
  rw [kl_ref]
  unfold KLn
  rw [at2_ix2, at2_ix2, at2_ix2, at2_ix2]

end Cert.ReferenceIdeal.RefValue

end
-- ==== Proof.Pieces.lean ====
import proofs.«136558_j19774029431036_1_alg».proof.Proof.Gen.KernelIdeal.Frame
import Idealize.ShloMosaic.Lib.Pipeline.Value
import Idealize.ShloMosaic.Lib.Tactic

set_option maxRecDepth 16384

noncomputable section

/-
  What each of the three control cases of the body leaves behind, as the body's stored values of the blocks it loaded.
  The first step of a row of the grid (case A) resets the two carried buffers and then updates them, so it leaves the
  update of the zero block; a middle step (case B) leaves the update of what the step before left; the last step
  (case C) does the same and then writes the two output blocks from the carried buffers it has just updated.
-/
namespace Cert.KernelIdeal.Pieces

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

theorem sout_B_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) (xs0 : Vec F S256x512 .f32) (xs1 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay7 x1 x2 x3 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem sout_B_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) (xs0 : Vec F S256x512 .f32) (xs1 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay1 x1 x4 x5 (k0_pay6 x2) (k0_pay8 x2 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem sout_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay7 x1 x2 x3 x0 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S256x512) hz2, View.readCov_unit_zero (S := S256x512) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem sout_A_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 x1 x4 x5 (k0_pay6 x2) (k0_pay8 x2 x5) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem sout_C_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) (xs0 : Vec F S256x512 .f32) (xs1 : Vec F S1x1 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay7 x1 x2 x3 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem sout_C_1 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) (xs0 : Vec F S256x512 .f32) (xs1 : Vec F S1x1 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay1 x1 x4 x5 (k0_pay6 x2) (k0_pay8 x2 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem out_C_9 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) (xs0 : Vec F S256x512 .f32) (xs1 : Vec F S1x1 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay2 x6 x7 x8 (k0_pay7 x1 x2 x3 x0 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz2, View.readCov_unit_zero (S := S256x512) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

theorem out_C_10 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x512 .f32) (harg11 : arg11.IsWhole) (arg12 : Memref sig .tc .vmem S8x128 .f32) (harg12 : arg12.IsWhole) (arg13 : Memref sig .tc .vmem S256x512 .f32) (harg13 : arg13.IsWhole) (arg14 : Memref sig .tc .vmem S1x1 .f32) (harg14 : arg14.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S512x1024 .f32) (x6 : Vec F S512 .f32) (x7 : Vec F S512 .f32) (x8 : Vec F S512 .f32) (xs0 : Vec F S256x512 .f32) (xs1 : Vec F S1x1 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 (k0_pay1 x1 x4 x5 (k0_pay6 x2) (k0_pay8 x2 x5) xs1) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S256x1024) hz2, View.ld_unit_zero (S := S256x512) hz2, View.ld_unit_zero (S := S1x1) hz2, View.ld_unit_zero (S := S8x128) hz2, View.ld_unit_zero (S := S512) hz1]

end Cert.KernelIdeal.Pieces

end
-- ==== Proof.LibKeepdims.lean ====
/-
  Two layout operations read at an index, for bodies that sum with the reduced axis kept: an `[a]` vector cast to the
  column `[a, 1]`, and a `[1, 1]` array broadcast to `[a, b]`. In the style of the library's leading-unit-axis casts.
-/
import Idealize.ShloMosaic.Lib.Pipeline.Value
import Idealize.ShloMosaic.Lib.ValueIdx

noncomputable section

namespace Cert.Proof.Layout

open Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, b]` reads its one element everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Proof.Layout

end
-- ==== Proof.Payloads.lean ====
/-
  The kernel body's stored values read at ONE index, at the ideal instance, over arbitrary blocks.

  With `μ, ρ, ε, μₚ, σₚ` the five [512, 1024] weight-shaped blocks, `x` the [256, 1024] input block, `acc` the
  [256, 512] accumulator and `kl` the [1, 1] running KL partial:
    * the softplus block at `(r, q)` is `sp (ρ r q)`;
    * the new accumulator at `(b, r)` is `acc b r + ∑_q x b q · (μ r q + sp (ρ r q) · ε r q)` — the matrix unit's
      product into a zero accumulator is the plain sum over the contracted axis, and the change of format in front
      of it is the identity;
    * the new KL partial is `kl + ∑_r ∑_q klel (μ r q) (ρ r q) (μₚ r q) (σₚ r q)` — a lane sum, then a sum down the
      one remaining column;
    * the output block at `(b, r)` is `acc b r + (bμ r + sp (bρ r) · bε r)`, the bias row repeated over the batch;
    * the KL output block is everywhere `kl / 1024`.
-/
import proofs.«136558_j19774029431036_1_alg».proof.Proof.Gen.KernelIdeal.Skeleton
import proofs.«136558_j19774029431036_1_alg».proof.Proof.Spec
import proofs.«136558_j19774029431036_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Idealize.ShloMosaic.Pipeline
open Cert.KernelIdeal Cert.KernelIdeal.Gen Cert.Proof.Spec Cert.Proof.Layout

/-- The body's one matrix product: [256, 1024] against [512, 1024], both contracted along their second axis. -/
abbrev DD := dot_S256x1024_S512x1024_S256x512_1_1_0_0_n_n

/-! ## The softplus block and the log-ratio block -/

theorem pay6_apply (x2 : FVec Ideal S512x1024 .f32) (i : S512x1024.Idx) :
    k0_pay6 (F := Ideal) x2 i = sp (x2 i) := by
  unfold k0_pay6
  exact sp_guard_one (x2 i)

theorem pay8_apply (x2 x5 : FVec Ideal S512x1024 .f32) (i : S512x1024.Idx) :
    k0_pay8 (F := Ideal) x2 x5 i = Ideal.log (Ideal.div (x5 i) (sp (x2 i))) := by
  unfold k0_pay8
  show Ideal.log (Ideal.div (x5 i) (k0_pay6 (F := Ideal) x2 i)) = _
  rw [pay6_apply]

/-! ## The accumulator's update -/

theorem lhs0 (j : S256x512.Idx) (q : DD.contr.Idx) : (DD.lhsIdx j q 0).val = (j 0).val := by
  unfold DotDims.lhsIdx
  rw [dif_neg (show ¬(0 : Fin S256x1024.rank) ∈ DD.lhsBatch by decide), dif_pos (show (0 : Fin S256x1024.rank) ∈ DD.lhsNonContracting by decide)]
  rfl
theorem lhs1 (j : S256x512.Idx) (q : DD.contr.Idx) : (DD.lhsIdx j q 1).val = (q ⟨0, by decide⟩).val :=
  DD.lhsIdx_val_of_single rfl j q
theorem rhs0 (j : S256x512.Idx) (q : DD.contr.Idx) : (DD.rhsIdx j q 0).val = (j 1).val := by
  unfold DotDims.rhsIdx
  rw [dif_neg (show ¬(0 : Fin S512x1024.rank) ∈ DD.rhsBatch by decide), dif_pos (show (0 : Fin S512x1024.rank) ∈ DD.rhsNonContracting by decide)]
  rfl
theorem rhs1 (j : S256x512.Idx) (q : DD.contr.Idx) : (DD.rhsIdx j q 1).val = (q ⟨0, by decide⟩).val :=
  DD.rhsIdx_val_of_single rfl j q

/-- The matrix product into a zero accumulator, at `(b, r)`: the sum over the 1024 contracted positions. -/
theorem matmul_zero_apply (L : FVec Ideal S256x1024 .bf16) (R : FVec Ideal S512x1024 .bf16) (b : Fin 256) (r : Fin 512) :
    FloatOps.matmul DD none L R (constant (F := Ideal) S256x512 .f32 0x00000000#32) (ix2 b r)
      = ∑ q : Fin 1024, L (ix2 b q) * R (ix2 r q) := by
  refine (Ideal.matmul_constant_zero_apply DD none L R (ix2 b r)).trans ?_
  rw [← Equiv.sum_comp (contrEquiv1 DD 1024 rfl rfl).symm]
  refine Finset.sum_congr rfl fun q _ => ?_
  have hk := contrEquiv1_symm_val DD 1024 rfl rfl q
  have el : DD.lhsIdx (ix2 b r) ((contrEquiv1 DD 1024 rfl rfl).symm q) = ix2 b q := funext fun a => Fin.ext (by
    match a with
    | ⟨0, _⟩ => exact lhs0 _ _
    | ⟨1, _⟩ => exact (lhs1 _ _).trans hk)
  have er : DD.rhsIdx (ix2 b r) ((contrEquiv1 DD 1024 rfl rfl).symm q) = ix2 r q := funext fun a => Fin.ext (by
    match a with
    | ⟨0, _⟩ => exact rhs0 _ _
    | ⟨1, _⟩ => exact (rhs1 _ _).trans hk)
  rw [el, er]

theorem pay7_apply (x1 x2 x3 : FVec Ideal S512x1024 .f32) (x0 : FVec Ideal S256x1024 .f32) (acc : FVec Ideal S256x512 .f32)
    (b : Fin 256) (r : Fin 512) :
    k0_pay7 (F := Ideal) x1 x2 x3 x0 acc (ix2 b r)
      = acc (ix2 b r) + ∑ q : Fin 1024, x0 (ix2 b q) * wgt (x1 (ix2 r q)) (x2 (ix2 r q)) (x3 (ix2 r q)) := by
  unfold k0_pay7
  rw [shapeCast_self]
  refine congrArg (acc (ix2 b r) + ·) ?_
  refine (matmul_zero_apply _ _ b r).trans ?_
  refine Finset.sum_congr rfl fun q _ => ?_
  show x0 (ix2 b q) * (x1 (ix2 r q) + k0_pay6 (F := Ideal) x2 (ix2 r q) * x3 (ix2 r q)) = _
  rw [pay6_apply]
  rfl

/-! ## The KL partial's update -/

/-- A lane sum of a [512, 1024] block, at row `r`. -/
theorem lane_sum_apply (v : FVec Ideal S512x1024 .f32) (hacc : (0x00000000#32 : BitVec 32) = 0x00000000#32) (r : Fin 512) :
    multiReduction .add [1] S512 v 0x00000000#32 reduces_S512x1024_S512 (.inl rfl) hacc (ix1 r) = ∑ q : Fin 1024, v (ix2 r q) := by
  refine (Ideal.multiReduction_add_single v 0x00000000#32 reduces_S512x1024_S512 (.inl rfl) hacc (ix1 r)).trans ?_
  refine Finset.sum_congr rfl fun q _ => congrArg v (funext fun a => Fin.ext ?_)
  match a with
  | ⟨0, _⟩ => rfl
  | ⟨1, _⟩ => rfl

/-- A sum down the one column of a [512, 1] block. -/
theorem col_sum_apply (v : FVec Ideal S512x1 .f32) (hacc : (0x00000000#32 : BitVec 32) = 0x00000000#32) (u : Fin 1) :
    multiReduction .add [0] S1 v 0x00000000#32 reduces_S512x1_S1 (.inl rfl) hacc (ix1 u) = ∑ r : Fin 512, v (ix2 r u) := by
  refine (Ideal.multiReduction_add_single v 0x00000000#32 reduces_S512x1_S1 (.inl rfl) hacc (ix1 u)).trans ?_
  refine Finset.sum_congr rfl fun q _ => congrArg v (funext fun a => Fin.ext ?_)
  match a with
  | ⟨0, _⟩ => rfl
  | ⟨1, _⟩ => rfl

theorem pay1_apply (x1 x4 x5 : FVec Ideal S512x1024 .f32) (x2 : FVec Ideal S512x1024 .f32) (kl : FVec Ideal S1x1 .f32)
    (u w : Fin 1) :
    k0_pay1 (F := Ideal) x1 x4 x5 (k0_pay6 (F := Ideal) x2) (k0_pay8 (F := Ideal) x2 x5) kl (ix2 u w)
      = kl (ix2 u w) + ∑ r : Fin 512, ∑ q : Fin 1024,
          klel (x1 (ix2 r q)) (x2 (ix2 r q)) (x4 (ix2 r q)) (x5 (ix2 r q)) := by
  unfold k0_pay1
  rw [shapeCast_self]
  refine congrArg (kl (ix2 u w) + ·) ?_
  refine (shapeCast_a_1a_apply _ _ u w).trans ?_
  refine (col_sum_apply _ rfl w).trans ?_
  refine Finset.sum_congr rfl fun r _ => ?_
  refine (shapeCast_a_a1_apply _ _ r w).trans ?_
  refine (lane_sum_apply _ rfl r).trans ?_
  refine Finset.sum_congr rfl fun q _ => ?_
  show (k0_pay8 (F := Ideal) x2 x5 (ix2 r q) + Ideal.div (k0_pay6 (F := Ideal) x2 (ix2 r q) * k0_pay6 (F := Ideal) x2 (ix2 r q)
      + (x1 (ix2 r q) - x4 (ix2 r q)) * (x1 (ix2 r q) - x4 (ix2 r q))) (two * (x5 (ix2 r q) * x5 (ix2 r q)))) - half = _
  rw [pay8_apply, pay6_apply]
  rfl

/-! ## The two output blocks, written at the last step of a row of the grid -/

theorem pay2_apply (x6 x7 x8 : FVec Ideal S512 .f32) (acc : FVec Ideal S256x512 .f32) (b : Fin 256) (r : Fin 512) :
    k0_pay2 (F := Ideal) x6 x7 x8 acc (ix2 b r)
      = acc (ix2 b r) + wgt (x6 (ix1 r)) (x7 (ix1 r)) (x8 (ix1 r)) := by
  unfold k0_pay2
  refine congrArg (acc (ix2 b r) + ·) ?_
  refine (broadcastTo_1b_ab_apply _ _ b r).trans ?_
  refine (shapeCast_a_1a_apply _ _ (0 : Fin 1) r).trans ?_
  show x6 (ix1 r) + Scalar.select (Ideal.cmp .one (x7 (ix1 r) - zw) (x7 (ix1 r) - zw)) (x7 (ix1 r) + zw)
      (max (x7 (ix1 r)) zw + Ideal.log1p (Ideal.exp (zw - max (x7 (ix1 r) - zw) (-(x7 (ix1 r) - zw))))) * x8 (ix1 r) = _
  rw [sp_guard_one]
  rfl

theorem pay3_apply (kl : FVec Ideal S1x1 .f32) (p : Fin 8) (c : Fin 128) :
    k0_pay3 (F := Ideal) kl (ix2 p c) = Ideal.div (kl (ix2 (0 : Fin 1) (0 : Fin 1))) k1024 := by
  unfold k0_pay3
  refine (broadcastTo_11_ab_apply _ _ p c).trans ?_
  rw [shapeCast_self]
  rfl

/-! ## The two resets -/

theorem pay4_apply (i : S256x512.Idx) : k0_pay4 (F := Ideal) i = 0 := by
  unfold k0_pay4
  rw [shapeCast_self]
  exact Ideal.ofBits_zero_f32

theorem pay5_apply (i : S1x1.Idx) : k0_pay5 (F := Ideal) i = 0 := by
  unfold k0_pay5
  rw [shapeCast_self]
  exact Ideal.ofBits_zero_f32

end Cert.KernelIdeal.Pay

end
-- ==== Proof.Blocks.lean ====
/-
  The pipeline's input blocks read at global positions. Point `t` of the 8 × 4 grid sits in row `t / 4` and column
  `t % 4` of the grid; its block of a weight-shaped array starts at row `512 (t / 4)`, column `1024 (t % 4)`, its block of
  `x` at column `1024 (t % 4)`, its block of a bias-shaped vector at `512 (t / 4)` — a block's coordinate is always
  block index × block size + the coordinate inside the block, and the index maps are decided once over the grid.
-/
import proofs.«136558_j19774029431036_1_alg».proof.Proof.Gen.KernelIdeal.Frame
import proofs.«136558_j19774029431036_1_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.Proof.Spec

variable (m : (ℓ : Loc nD τ sig) → Buf (Elt Ideal) ℓ)

/-! ## The index maps over the grid -/

theorem idx0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)
theorem idx5 : ∀ t : Fin cfg0.N, win0_5.index t 0 = t.val / 4 ∧ win0_5.index t 1 = t.val % 4 :=
  (by decide +kernel : ∀ t : Fin grid0.N, win0_5.index t 0 = t.val / 4 ∧ win0_5.index t 1 = t.val % 4)
theorem idx6 : ∀ t : Fin cfg0.N, win0_6.index t 0 = t.val / 4 :=
  (by decide +kernel : ∀ t : Fin grid0.N, win0_6.index t 0 = t.val / 4)
theorem idx7 : ∀ t : Fin cfg0.N, win0_7.index t 0 = t.val / 4 :=
  (by decide +kernel : ∀ t : Fin grid0.N, win0_7.index t 0 = t.val / 4)
theorem idx8 : ∀ t : Fin cfg0.N, win0_8.index t 0 = t.val / 4 :=
  (by decide +kernel : ∀ t : Fin grid0.N, win0_8.index t 0 = t.val / 4)
theorem idx9 : ∀ t : Fin cfg0.N, win0_9.index t 0 = 0 ∧ win0_9.index t 1 = t.val / 4 :=
  (by decide +kernel : ∀ t : Fin grid0.N, win0_9.index t 0 = 0 ∧ win0_9.index t 1 = t.val / 4)
theorem idx10 : ∀ t : Fin cfg0.N, win0_10.index t 0 = t.val / 4 ∧ win0_10.index t 1 = 0 :=
  (by decide +kernel : ∀ t : Fin grid0.N, win0_10.index t 0 = t.val / 4 ∧ win0_10.index t 1 = 0)

/-! ## The input blocks -/

theorem iblk0 (c : Dev nD) (t : Fin cfg0.N) (b : Fin 256) (q : Fin 1024) :
    (iblk m c 0 t : Vec Ideal S256x1024 .f32) (ix2 b q)
      = at2 (n0 := 256) (n1 := 4096) (m ((c : Thread nD τ).loc main_arg0)) b.val (1024 * (t.val % 4) + q.val) := by
  unfold iblk
  rw [View.read_apply]
  show V m c main_arg0 _ = _
  refine at2_of_val (n0 := 256) (n1 := 4096) (V m c main_arg0) _ _ _ ?_ ?_
  · show win0_0.index t 0 * 256 + 1 * b.val = _
    rw [(idx0 t).1]; omega
  · show win0_0.index t 1 * 1024 + 1 * q.val = _
    rw [(idx0 t).2]; omega

theorem iblk1 (c : Dev nD) (t : Fin cfg0.N) (r : Fin 512) (q : Fin 1024) :
    (iblk m c 1 t : Vec Ideal S512x1024 .f32) (ix2 r q)
      = at2 (n0 := 4096) (n1 := 4096) (m ((c : Thread nD τ).loc main_arg1)) (512 * (t.val / 4) + r.val) (1024 * (t.val % 4) + q.val) := by
  unfold iblk
  rw [View.read_apply]
  show V m c main_arg1 _ = _
  refine at2_of_val (n0 := 4096) (n1 := 4096) (V m c main_arg1) _ _ _ ?_ ?_
  · show win0_1.index t 0 * 512 + 1 * r.val = _
    rw [(idx1 t).1]; omega
  · show win0_1.index t 1 * 1024 + 1 * q.val = _
    rw [(idx1 t).2]; omega

theorem iblk2 (c : Dev nD) (t : Fin cfg0.N) (r : Fin 512) (q : Fin 1024) :
    (iblk m c 2 t : Vec Ideal S512x1024 .f32) (ix2 r q)
      = at2 (n0 := 4096) (n1 := 4096) (m ((c : Thread nD τ).loc main_arg2)) (512 * (t.val / 4) + r.val) (1024 * (t.val % 4) + q.val) := by
  unfold iblk
  rw [View.read_apply]
  show V m c main_arg2 _ = _
  refine at2_of_val (n0 := 4096) (n1 := 4096) (V m c main_arg2) _ _ _ ?_ ?_
  · show win0_2.index t 0 * 512 + 1 * r.val = _
    rw [(idx2 t).1]; omega
  · show win0_2.index t 1 * 1024 + 1 * q.val = _
    rw [(idx2 t).2]; omega

theorem iblk3 (c : Dev nD) (t : Fin cfg0.N) (r : Fin 512) (q : Fin 1024) :
    (iblk m c 3 t : Vec Ideal S512x1024 .f32) (ix2 r q)
      = at2 (n0 := 4096) (n1 := 4096) (m ((c : Thread nD τ).loc main_arg5)) (512 * (t.val / 4) + r.val) (1024 * (t.val % 4) + q.val) := by
  unfold iblk
  rw [View.read_apply]
  show V m c main_arg5 _ = _
  refine at2_of_val (n0 := 4096) (n1 := 4096) (V m c main_arg5) _ _ _ ?_ ?_
  · show win0_3.index t 0 * 512 + 1 * r.val = _
    rw [(idx3 t).1]; omega
  · show win0_3.index t 1 * 1024 + 1 * q.val = _
    rw [(idx3 t).2]; omega

theorem iblk4 (c : Dev nD) (t : Fin cfg0.N) (r : Fin 512) (q : Fin 1024) :
    (iblk m c 4 t : Vec Ideal S512x1024 .f32) (ix2 r q)
      = at2 (n0 := 4096) (n1 := 4096) (m ((c : Thread nD τ).loc main_arg7)) (512 * (t.val / 4) + r.val) (1024 * (t.val % 4) + q.val) := by
  unfold iblk
  rw [View.read_apply]
  show V m c main_arg7 _ = _
  refine at2_of_val (n0 := 4096) (n1 := 4096) (V m c main_arg7) _ _ _ ?_ ?_
  · show win0_4.index t 0 * 512 + 1 * r.val = _
    rw [(idx4 t).1]; omega
  · show win0_4.index t 1 * 1024 + 1 * q.val = _
    rw [(idx4 t).2]; omega

theorem iblk5 (c : Dev nD) (t : Fin cfg0.N) (r : Fin 512) (q : Fin 1024) :
    (iblk m c 5 t : Vec Ideal S512x1024 .f32) (ix2 r q)
      = at2 (n0 := 4096) (n1 := 4096) (m ((c : Thread nD τ).loc main_arg8)) (512 * (t.val / 4) + r.val) (1024 * (t.val % 4) + q.val) := by
  unfold iblk
  rw [View.read_apply]
  show V m c main_arg8 _ = _
  refine at2_of_val (n0 := 4096) (n1 := 4096) (V m c main_arg8) _ _ _ ?_ ?_
  · show win0_5.index t 0 * 512 + 1 * r.val = _
    rw [(idx5 t).1]; omega
  · show win0_5.index t 1 * 1024 + 1 * q.val = _
    rw [(idx5 t).2]; omega

theorem iblk6 (c : Dev nD) (t : Fin cfg0.N) (r : Fin 512) :
    (iblk m c 6 t : Vec Ideal S512 .f32) (ix1 r)
      = at1 (n := 4096) (m ((c : Thread nD τ).loc main_arg3)) (512 * (t.val / 4) + r.val) := by
  unfold iblk
  rw [View.read_apply]
  show V m c main_arg3 _ = _
  refine at1_of_val (n := 4096) (V m c main_arg3) _ _ ?_
  show win0_6.index t 0 * 512 + 1 * r.val = _
  rw [idx6 t]; omega

theorem iblk7 (c : Dev nD) (t : Fin cfg0.N) (r : Fin 512) :
    (iblk m c 7 t : Vec Ideal S512 .f32) (ix1 r)
      = at1 (n := 4096) (m ((c : Thread nD τ).loc main_arg4)) (512 * (t.val / 4) + r.val) := by
  unfold iblk
  rw [View.read_apply]
  show V m c main_arg4 _ = _
  refine at1_of_val (n := 4096) (V m c main_arg4) _ _ ?_
  show win0_7.index t 0 * 512 + 1 * r.val = _
  rw [idx7 t]; omega

theorem iblk8 (c : Dev nD) (t : Fin cfg0.N) (r : Fin 512) :
    (iblk m c 8 t : Vec Ideal S512 .f32) (ix1 r)
      = at1 (n := 4096) (m ((c : Thread nD τ).loc main_arg6)) (512 * (t.val / 4) + r.val) := by
  unfold iblk
  rw [View.read_apply]
  show V m c main_arg6 _ = _
  refine at1_of_val (n := 4096) (V m c main_arg6) _ _ ?_
  show win0_8.index t 0 * 512 + 1 * r.val = _
  rw [idx8 t]; omega

end Cert.KernelIdeal.Blocks

end
-- ==== Proof.Invariant.lean ====
/-
  What the two carried buffers hold after every point of the grid, in closed form, and what the last point of each
  row of the grid writes to the two outputs.

  After point `n` (row `n / 4` of the grid, step `n % 4`) the [256, 512] accumulator holds, at `(b, r)`, the tiles
  `0 … n % 4` of `∑ᵢ x[b, i] · w[512 (n/4) + r, i]`, and the [1, 1] buffer the same tiles of the KL sum of its 512 rows:
  the first step of a row starts both from zero, every other step adds its tile to what the step before left. By
  induction on the point. The last step of a row then writes `accumulator + bias` and `KL partial / 1024`.
-/
import proofs.«136558_j19774029431036_1_alg».proof.Proof.Pieces
import proofs.«136558_j19774029431036_1_alg».proof.Proof.Payloads
import proofs.«136558_j19774029431036_1_alg».proof.Proof.Blocks

noncomputable section

open scoped BigOperators

namespace Cert.KernelIdeal.Inv

open Idealize.ShloMosaic Idealize.ShloMosaic.TcCoe Idealize.SL.Sem Idealize.ShloMosaic.ValueIdx
open Cert.KernelIdeal Cert.KernelIdeal.Gen Cert.Proof.Spec Cert.KernelIdeal.Pieces Cert.KernelIdeal.Pay Cert.KernelIdeal.Blocks

variable (m : (ℓ : Loc nD τ sig) → Buf (Elt Ideal) ℓ)

/-! ## The argument arrays, as functions of an index -/

abbrev aX (c : Dev nD) : (⟨2, ![256, 4096]⟩ : Shape).Idx → EReal := m ((c : Thread nD τ).loc main_arg0)
abbrev aWmu (c : Dev nD) : (⟨2, ![4096, 4096]⟩ : Shape).Idx → EReal := m ((c : Thread nD τ).loc main_arg1)
abbrev aWrho (c : Dev nD) : (⟨2, ![4096, 4096]⟩ : Shape).Idx → EReal := m ((c : Thread nD τ).loc main_arg2)
abbrev aBmu (c : Dev nD) : (⟨1, ![4096]⟩ : Shape).Idx → EReal := m ((c : Thread nD τ).loc main_arg3)
abbrev aBrho (c : Dev nD) : (⟨1, ![4096]⟩ : Shape).Idx → EReal := m ((c : Thread nD τ).loc main_arg4)
abbrev aEps (c : Dev nD) : (⟨2, ![4096, 4096]⟩ : Shape).Idx → EReal := m ((c : Thread nD τ).loc main_arg5)
abbrev aBeps (c : Dev nD) : (⟨1, ![4096]⟩ : Shape).Idx → EReal := m ((c : Thread nD τ).loc main_arg6)
abbrev aPmu (c : Dev nD) : (⟨2, ![4096, 4096]⟩ : Shape).Idx → EReal := m ((c : Thread nD τ).loc main_arg7)
abbrev aPsig (c : Dev nD) : (⟨2, ![4096, 4096]⟩ : Shape).Idx → EReal := m ((c : Thread nD τ).loc main_arg8)

/-! ## The three cases, as the body's stored values -/

theorem acc_A (c : Dev nD) (t : Fin cfg0.N) (h0 : t.val % 4 = 0) (h1 : ¬t.val % 4 = 3) :
    (outsAt0 m c t.val t.isLt).2.2.1 = k0_pay7 (F := Ideal) (iblk m c 1 t) (iblk m c 2 t) (iblk m c 3 t) (iblk m c 0 t) (k0_pay4 (F := Ideal)) := by
  rw [outsAt0_A m c t h0 h1]
  dsimp only
  exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem kl_A (c : Dev nD) (t : Fin cfg0.N) (h0 : t.val % 4 = 0) (h1 : ¬t.val % 4 = 3) :
    (outsAt0 m c t.val t.isLt).2.2.2 = k0_pay1 (F := Ideal) (iblk m c 1 t) (iblk m c 4 t) (iblk m c 5 t) (k0_pay6 (F := Ideal) (iblk m c 2 t)) (k0_pay8 (F := Ideal) (iblk m c 2 t) (iblk m c 5 t)) (k0_pay5 (F := Ideal)) := by
  rw [outsAt0_A m c t h0 h1]
  dsimp only
  exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem acc_B (c : Dev nD) (t : Fin cfg0.N) (h0 : ¬t.val % 4 = 0) (h1 : ¬t.val % 4 = 3) :
    (outsAt0 m c t.val t.isLt).2.2.1 = k0_pay7 (F := Ideal) (iblk m c 1 t) (iblk m c 2 t) (iblk m c 3 t) (iblk m c 0 t) (outsAt0 m c (t.val - 1) (Nat.lt_of_le_of_lt (Nat.sub_le _ _) t.isLt)).2.2.1 := by
  rw [outsAt0_B m c t h0 h1]
  dsimp only
  exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2

theorem kl_B (c : Dev nD) (t : Fin cfg0.N) (h0 : ¬t.val % 4 = 0) (h1 : ¬t.val % 4 = 3) :
    (outsAt0 m c t.val t.isLt).2.2.2 = k0_pay1 (F := Ideal) (iblk m c 1 t) (iblk m c 4 t) (iblk m c 5 t) (k0_pay6 (F := Ideal) (iblk m c 2 t)) (k0_pay8 (F := Ideal) (iblk m c 2 t) (iblk m c 5 t)) (outsAt0 m c (t.val - 1) (Nat.lt_of_le_of_lt (Nat.sub_le _ _) t.isLt)).2.2.2 := by
  rw [outsAt0_B m c t h0 h1]
  dsimp only
  exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2

theorem acc_C (c : Dev nD) (t : Fin cfg0.N) (h0 : ¬t.val % 4 = 0) (h1 : t.val % 4 = 3) :
    (outsAt0 m c t.val t.isLt).2.2.1 = k0_pay7 (F := Ideal) (iblk m c 1 t) (iblk m c 2 t) (iblk m c 3 t) (iblk m c 0 t) (outsAt0 m c (t.val - 1) (Nat.lt_of_le_of_lt (Nat.sub_le _ _) t.isLt)).2.2.1 := by
  rw [outsAt0_C m c t h0 h1]
  dsimp only
  exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2

theorem kl_C (c : Dev nD) (t : Fin cfg0.N) (h0 : ¬t.val % 4 = 0) (h1 : t.val % 4 = 3) :
    (outsAt0 m c t.val t.isLt).2.2.2 = k0_pay1 (F := Ideal) (iblk m c 1 t) (iblk m c 4 t) (iblk m c 5 t) (k0_pay6 (F := Ideal) (iblk m c 2 t)) (k0_pay8 (F := Ideal) (iblk m c 2 t) (iblk m c 5 t)) (outsAt0 m c (t.val - 1) (Nat.lt_of_le_of_lt (Nat.sub_le _ _) t.isLt)).2.2.2 := by
  rw [outsAt0_C m c t h0 h1]
  dsimp only
  exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2

theorem out9_C (c : Dev nD) (t : Fin cfg0.N) (h0 : ¬t.val % 4 = 0) (h1 : t.val % 4 = 3) :
    (outsAt0 m c t.val t.isLt).1 = k0_pay2 (F := Ideal) (iblk m c 6 t) (iblk m c 7 t) (iblk m c 8 t) (k0_pay7 (F := Ideal) (iblk m c 1 t) (iblk m c 2 t) (iblk m c 3 t) (iblk m c 0 t) (outsAt0 m c (t.val - 1) (Nat.lt_of_le_of_lt (Nat.sub_le _ _) t.isLt)).2.2.1) := by
  rw [outsAt0_C m c t h0 h1]
  dsimp only
  exact out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2

theorem out10_C (c : Dev nD) (t : Fin cfg0.N) (h0 : ¬t.val % 4 = 0) (h1 : t.val % 4 = 3) :
    (outsAt0 m c t.val t.isLt).2.1 = k0_pay3 (F := Ideal) (k0_pay1 (F := Ideal) (iblk m c 1 t) (iblk m c 4 t) (iblk m c 5 t) (k0_pay6 (F := Ideal) (iblk m c 2 t)) (k0_pay8 (F := Ideal) (iblk m c 2 t) (iblk m c 5 t)) (outsAt0 m c (t.val - 1) (Nat.lt_of_le_of_lt (Nat.sub_le _ _) t.isLt)).2.2.2) := by
  rw [outsAt0_C m c t h0 h1]
  dsimp only
  exact out_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## One step: the tile a point adds -/

/-- The accumulator's update at point `t`, read at `(b, r)`: what it started from plus the point's tile. -/
theorem acc_step (c : Dev nD) (t : Fin cfg0.N) (acc : FVec Ideal S256x512 .f32) (b : Fin 256) (r : Fin 512) :
    k0_pay7 (F := Ideal) (iblk m c 1 t) (iblk m c 2 t) (iblk m c 3 t) (iblk m c 0 t) acc (ix2 b r)
      = acc (ix2 b r) + dotTile (aX m c) (aWmu m c) (aWrho m c) (aEps m c) (t.val / 4) (t.val % 4) b.val r.val := by
  refine (pay7_apply (iblk m c 1 t) (iblk m c 2 t) (iblk m c 3 t) (iblk m c 0 t) acc b r).trans ?_
  refine congrArg (acc (ix2 b r) + ·) ?_
  unfold dotTile
  rw [← sum_fin_range]
  refine Finset.sum_congr rfl fun q _ => ?_
  rw [iblk0 m c t b q, iblk1 m c t r q, iblk2 m c t r q, iblk3 m c t r q]
  rfl

/-- The KL partial's update at point `t`: what it started from plus the point's tile. -/
theorem kl_step (c : Dev nD) (t : Fin cfg0.N) (kl : FVec Ideal S1x1 .f32) (u w : Fin 1) :
    k0_pay1 (F := Ideal) (iblk m c 1 t) (iblk m c 4 t) (iblk m c 5 t) (k0_pay6 (F := Ideal) (iblk m c 2 t)) (k0_pay8 (F := Ideal) (iblk m c 2 t) (iblk m c 5 t)) kl (ix2 u w)
      = kl (ix2 u w) + klTile (aWmu m c) (aWrho m c) (aPmu m c) (aPsig m c) (t.val / 4) (t.val % 4) := by
  refine (pay1_apply (iblk m c 1 t) (iblk m c 4 t) (iblk m c 5 t) (iblk m c 2 t) kl u w).trans ?_
  refine congrArg (kl (ix2 u w) + ·) ?_
  unfold klTile
  rw [← sum_fin_range]
  refine Finset.sum_congr rfl fun r _ => ?_
  rw [← sum_fin_range]
  refine Finset.sum_congr rfl fun q _ => ?_
  rw [iblk1 m c t r q, iblk2 m c t r q, iblk4 m c t r q, iblk5 m c t r q]
  rfl

/-! ## The carried buffers after every point -/

theorem carried (c : Dev nD) : ∀ (n : ℕ) (h : n < cfg0.N),
    (∀ (b : Fin 256) (r : Fin 512), (outsAt0 m c n h).2.2.1 (ix2 b r) = accN (aX m c) (aWmu m c) (aWrho m c) (aEps m c) n b.val r.val)
    ∧ (∀ (u w : Fin 1), (outsAt0 m c n h).2.2.2 (ix2 u w) = klN (aWmu m c) (aWrho m c) (aPmu m c) (aPsig m c) n) := by
  intro n
  induction n using Nat.strong_induction_on with
  | _ n ih =>
    intro h
    have hN : cfg0.N = 32 := N_0
    by_cases h0 : n % 4 = 0
    · have h1 : ¬n % 4 = 3 := by omega
      refine ⟨fun b r => ?_, fun u w => ?_⟩
      · refine (congrFun (acc_A m c ⟨n, h⟩ h0 h1) (ix2 b r)).trans ?_
        refine (acc_step m c ⟨n, h⟩ _ b r).trans ?_
        rw [accN_first _ _ _ _ n b.val r.val h0, pay4_apply]
      · refine (congrFun (kl_A m c ⟨n, h⟩ h0 h1) (ix2 u w)).trans ?_
        refine (kl_step m c ⟨n, h⟩ _ u w).trans ?_
        rw [klN_first _ _ _ _ n h0, pay5_apply]
    · have hp : n - 1 < n := by omega
      have hprev := ih (n - 1) hp (Nat.lt_of_le_of_lt (Nat.sub_le _ _) h)
      by_cases h1 : n % 4 = 3
      · refine ⟨fun b r => ?_, fun u w => ?_⟩
        · refine (congrFun (acc_C m c ⟨n, h⟩ h0 h1) (ix2 b r)).trans ?_
          refine (acc_step m c ⟨n, h⟩ _ b r).trans ?_
          rw [accN_step _ _ _ _ n b.val r.val h0]
          exact congrArg (· + _) (hprev.1 b r)
        · refine (congrFun (kl_C m c ⟨n, h⟩ h0 h1) (ix2 u w)).trans ?_
          refine (kl_step m c ⟨n, h⟩ _ u w).trans ?_
          rw [klN_step _ _ _ _ n h0]
          exact congrArg (· + _) (hprev.2 u w)
      · refine ⟨fun b r => ?_, fun u w => ?_⟩
        · refine (congrFun (acc_B m c ⟨n, h⟩ h0 h1) (ix2 b r)).trans ?_
          refine (acc_step m c ⟨n, h⟩ _ b r).trans ?_
          rw [accN_step _ _ _ _ n b.val r.val h0]
          exact congrArg (· + _) (hprev.1 b r)
        · refine (congrFun (kl_B m c ⟨n, h⟩ h0 h1) (ix2 u w)).trans ?_
          refine (kl_step m c ⟨n, h⟩ _ u w).trans ?_
          rw [klN_step _ _ _ _ n h0]
          exact congrArg (· + _) (hprev.2 u w)

/-! ## What the last step of a row of the grid writes -/

theorem out9_apply (c : Dev nD) (t : Fin cfg0.N) (h1 : t.val % 4 = 3) (b : Fin 256) (r : Fin 512) :
    (outsAt0 m c t.val t.isLt).1 (ix2 b r)
      = accN (aX m c) (aWmu m c) (aWrho m c) (aEps m c) t.val b.val r.val + Bn (aBmu m c) (aBrho m c) (aBeps m c) (512 * (t.val / 4) + r.val) := by
  have h0 : ¬t.val % 4 = 0 := by omega
  refine (congrFun (out9_C m c t h0 h1) (ix2 b r)).trans ?_
  rw [← acc_C m c t h0 h1]
  refine (pay2_apply (iblk m c 6 t) (iblk m c 7 t) (iblk m c 8 t) _ b r).trans ?_
  rw [(carried m c t.val t.isLt).1 b r, iblk6 m c t r, iblk7 m c t r, iblk8 m c t r]
  rfl

theorem out10_apply (c : Dev nD) (t : Fin cfg0.N) (h1 : t.val % 4 = 3) (p : Fin 8) (q : Fin 128) :
    (outsAt0 m c t.val t.isLt).2.1 (ix2 p q) = Ideal.div (klN (aWmu m c) (aWrho m c) (aPmu m c) (aPsig m c) t.val) k1024 := by
  have h0 : ¬t.val % 4 = 0 := by omega
  refine (congrFun (out10_C m c t h0 h1) (ix2 p q)).trans ?_
  rw [← kl_C m c t h0 h1]
  refine (pay3_apply _ p q).trans ?_
  rw [(carried m c t.val t.isLt).2 0 0]

end Cert.KernelIdeal.Inv

end
-- ==== Proof.KernelValue.lean ====
/-
  The idealized kernel's two results as functions of the argument arrays.

  The first result at `(b, j)` is `∑ᵢ x[b, i] · w[j, i] + bias[j]` with `w = μ + sp ρ · ε`: the last point of row
  `j / 512` of the grid writes columns `512 (j / 512) …` of it from the accumulator, which by then holds the whole
  contraction, and the eight rows' blocks tile the array. The second output of the region is the [64, 128] array whose
  rows `8 o … 8 o + 7` hold row `o`'s KL partial divided by 1024; the host's sum of it after the region gives each
  partial back from its 1024 copies, so the second result is the KL sum over the whole weight matrix.
-/
import proofs.«136558_j19774029431036_1_alg».proof.Proof.Invariant
import Idealize.ShloMosaic.Lib.Pipeline.Value
import Idealize.ShloMosaic.Lib.StableHlo.Run
import Idealize.ShloMosaic.Lib.Tactic

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.Proof.Spec Cert.KernelIdeal.Blocks Cert.KernelIdeal.Inv

variable (m : (ℓ : Loc nD τ sig) → Buf (Elt Ideal) ℓ) (ρ : Dev nD → PrngReg)

/-! ## The two arrays the region writes -/

/-- The layer's output at `(b, j)`. -/
def G9 (c : Dev nD) : Buf (Elt Ideal) ((c : Thread nD τ).loc main_v0_0) := fun (i : S256x4096.Idx) =>
  (∑ k ∈ Finset.range 4096, at2 (aX m c) (i 0).val k * Wn (aWmu m c) (aWrho m c) (aEps m c) (i 1).val k)
    + Bn (aBmu m c) (aBrho m c) (aBeps m c) (i 1).val

/-- The region's KL output: row `a` holds the partial of row `a / 8` of the grid, divided by 1024. -/
def G10 (c : Dev nD) : Buf (Elt Ideal) ((c : Thread nD τ).loc main_v0_1) := fun (i : S64x128.Idx) =>
  Ideal.div (klN (aWmu m c) (aWrho m c) (aPmu m c) (aPsig m c) (4 * ((i 0).val / 8) + 3)) k1024

/-- The KL sum over the whole weight matrix, from the float zero. -/
def KLtot (c : Dev nD) : EReal :=
  zw + ∑ R ∈ Finset.range 4096, ∑ C ∈ Finset.range 4096, KLn (aWmu m c) (aWrho m c) (aPmu m c) (aPsig m c) R C

/-- At the last step of a row of the grid the accumulator holds the whole contraction. -/
theorem accN_last' (c : Dev nD) (n b r : ℕ) (h : n % 4 = 3) :
    accN (aX m c) (aWmu m c) (aWrho m c) (aEps m c) n b r = ∑ i ∈ Finset.range 4096, at2 (aX m c) b i * Wn (aWmu m c) (aWrho m c) (aEps m c) (512 * (n / 4) + r) i := by
  have hn : n = 4 * (n / 4) + 3 := by omega
  have := accN_last (aX m c) (aWmu m c) (aWrho m c) (aEps m c) (n / 4) b r
  rwa [← hn] at this

/-! ## What a flushing point writes back -/

theorem flushed9_eq (c : Dev nD) (t : Fin cfg0.N) (hf : (cfg0.win 9).flush t = true) :
    (dats m 0 c).flushed 9 t = ((cfg0.win 9).blk t).view.read (Elt Ideal) (G9 m c) := by
  have h3 : t.val % 4 = 3 := (flush0_9 t).mp hf
  show (cfg0.win 9).cut (grid0.coords t) ((dats m 0 c).after 9 t) = _
  rw [after0_9]
  funext j
  obtain ⟨b, r, rfl⟩ : ∃ (b : Fin 256) (r : Fin 512), j = ix2 b r := ⟨j 0, j 1, eq_ix2 j⟩
  show (outsAt0 m c t.val t.isLt).1 (ix2 b r) = G9 m c (((cfg0.win 9).blk t).view.emb (ix2 b r))
  rw [out9_apply m c t h3 b r, accN_last' m c t.val b.val r.val h3]
  have e0 : ((((cfg0.win 9).blk t).view.emb (ix2 b r)) 0).val = b.val := by
    show win0_9.index t 0 * 256 + 1 * b.val = _
    rw [(idx9 t).1]; omega
  have e1 : ((((cfg0.win 9).blk t).view.emb (ix2 b r)) 1).val = 512 * (t.val / 4) + r.val := by
    show win0_9.index t 1 * 512 + 1 * r.val = _
    rw [(idx9 t).2]; omega
  unfold G9
  rw [e0, e1]

theorem flushed10_eq (c : Dev nD) (t : Fin cfg0.N) (hf : (cfg0.win 10).flush t = true) :
    (dats m 0 c).flushed 10 t = ((cfg0.win 10).blk t).view.read (Elt Ideal) (G10 m c) := by
  have h3 : t.val % 4 = 3 := (flush0_10 t).mp hf
  show (cfg0.win 10).cut (grid0.coords t) ((dats m 0 c).after 10 t) = _
  rw [after0_10]
  funext j
  obtain ⟨p, q, rfl⟩ : ∃ (p : Fin 8) (q : Fin 128), j = ix2 p q := ⟨j 0, j 1, eq_ix2 j⟩
  show (outsAt0 m c t.val t.isLt).2.1 (ix2 p q) = G10 m c (((cfg0.win 10).blk t).view.emb (ix2 p q))
  rw [out10_apply m c t h3 p q]
  have e0 : ((((cfg0.win 10).blk t).view.emb (ix2 p q)) 0).val = 8 * (t.val / 4) + p.val := by
    show win0_10.index t 0 * 8 + 1 * p.val = _
    rw [(idx10 t).1]; omega
  unfold G10
  rw [e0, show 4 * ((8 * (t.val / 4) + p.val) / 8) + 3 = t.val by omega]

/-! ## The blocks tile the arrays -/

theorem mem_blk9 (t : Fin cfg0.N) (i : S256x4096.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v0_0).slice (win0_9.rect t)).set ↔ _
  rw [View.set_slice_whole, Rect.mem_set_unit]
  exact Iff.rfl

theorem mem_blk10 (t : Fin cfg0.N) (i : S64x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v0_1).slice (win0_10.rect t)).set ↔ _
  rw [View.set_slice_whole, Rect.mem_set_unit]
  exact Iff.rfl

/-- Column `j` of the first result is written by the last point of row `j / 512` of the grid. -/
theorem cover9 (i : S256x4096.Idx) :
    ∃ t : Fin cfg0.N, (cfg0.win 9).flush t = true ∧ i ∈ ((cfg0.win 9).blk t).view.set := by
  have hN : cfg0.N = 32 := N_0
  have hi0 : (i 0).val < 256 := (i 0).isLt
  have hi1 : (i 1).val < 4096 := (i 1).isLt
  let t : Fin cfg0.N := ⟨4 * ((i 1).val / 512) + 3, by rw [hN]; omega⟩
  have ht : t.val = 4 * ((i 1).val / 512) + 3 := rfl
  refine ⟨t, (flush0_9 t).mpr (by rw [ht]; omega), ?_⟩
  rw [mem_blk9]
  intro a
  match a with
  | ⟨0, _⟩ =>
    show win0_9.index t 0 * 256 ≤ (i 0).val ∧ (i 0).val < win0_9.index t 0 * 256 + 256
    rw [(idx9 t).1]; omega
  | ⟨1, _⟩ =>
    show win0_9.index t 1 * 512 ≤ (i 1).val ∧ (i 1).val < win0_9.index t 1 * 512 + 512
    rw [(idx9 t).2, ht]; omega

/-- Row `a` of the KL output is written by the last point of row `a / 8` of the grid. -/
theorem cover10 (i : S64x128.Idx) :
    ∃ t : Fin cfg0.N, (cfg0.win 10).flush t = true ∧ i ∈ ((cfg0.win 10).blk t).view.set := by
  have hN : cfg0.N = 32 := N_0
  have hi0 : (i 0).val < 64 := (i 0).isLt
  have hi1 : (i 1).val < 128 := (i 1).isLt
  let t : Fin cfg0.N := ⟨4 * ((i 0).val / 8) + 3, by rw [hN]; omega⟩
  have ht : t.val = 4 * ((i 0).val / 8) + 3 := rfl
  refine ⟨t, (flush0_10 t).mpr (by rw [ht]; omega), ?_⟩
  rw [mem_blk10]
  intro a
  match a with
  | ⟨0, _⟩ =>
    show win0_10.index t 0 * 8 ≤ (i 0).val ∧ (i 0).val < win0_10.index t 0 * 8 + 8
    rw [(idx10 t).1, ht]; omega
  | ⟨1, _⟩ =>
    show win0_10.index t 1 * 128 ≤ (i 1).val ∧ (i 1).val < win0_10.index t 1 * 128 + 128
    rw [(idx10 t).2]; omega

/-! ## The arrays after the region -/

theorem final9 (c : Dev nD) : (dats m 0 c).arrAt 9 cfg0.N = G9 m c :=
  (dats m 0 c).arrAt_eq_of_cover 9 (G9 m c) (fun t hf => flushed9_eq m c t hf) cover9

theorem final10 (c : Dev nD) : (dats m 0 c).arrAt 10 cfg0.N = G10 m c :=
  (dats m 0 c).arrAt_eq_of_cover 10 (G10 m c) (fun t hf => flushed10_eq m c t hf) cover10

/-! ## The host's sum after the region -/

/-- The sum over the [64, 128] KL output is the KL sum over the whole matrix. -/
theorem sum_G10 (c : Dev nD) :
    Host.reduceAdd (F := Ideal) (G10 m c) (constant (F := Ideal) S_ .f32 0x00000000#32) reducesTo_S64x128_S_d0_1 h_S_
      = fun _ => KLtot m c := by
  funext j
  simp only [Host.reduceAdd, Ideal.hostReduceAdd_def]
  refine (Ideal.hostReduceAdd_total reducesTo_S64x128_S_d0_1 (fun b => b.elim0) (G10 m c) _ j).trans ?_
  unfold KLtot
  refine congrArg (zw + ·) ?_
  rw [sum_idx2]
  show ∑ a : Fin 64, ∑ b : Fin 128, Ideal.div (klN (aWmu m c) (aWrho m c) (aPmu m c) (aPsig m c) (4 * (a.val / 8) + 3)) k1024 = _
  rw [sum_fin_range (fun a => ∑ b : Fin 128, Ideal.div (klN (aWmu m c) (aWrho m c) (aPmu m c) (aPsig m c) (4 * (a / 8) + 3)) k1024) 64]
  rw [Finset.sum_congr rfl fun a _ => sum_fin_range (fun _ => Ideal.div (klN (aWmu m c) (aWrho m c) (aPmu m c) (aPsig m c) (4 * (a / 8) + 3)) k1024) 128]
  rw [kl_out_total, klN_total]

/-- The second result: the host's sum, after the region, of the region's KL output. -/
theorem tail_eq (c : Dev nD) :
    (Pipeline.afterTail₀ cfgs (dats m) 0 (V0 m) [hostOps1] c main_v1 : S_.Idx → EReal) = fun _ => KLtot m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_1)
      = G10 m c :=
    (Pipeline.withArrays_arr (cfgs 0).spec launch0.win.arr_inj c _ _ 10).trans (final10 m c)
  rw [e]
  exact sum_G10 m c

/-! ## The run, read -/

theorem mem_v1 : main_v1 ∈ Pipeline.restRefs sig (cfgs 0).spec :=
  Pipeline.mem_restRefs_of main_v1 rfl (fun w => by fin_cases w <;> decide)

/-- Every weakly fair execution of the idealized kernel's program terminates with its first result at `G9`, its
    second at the KL total, and its arguments unchanged. -/
theorem run : θ_run defs (onTc (τ := τ) (main (F := Ideal))) ⟨m, fun _ => 0, ρ⟩ fun r => ∀ c : Dev nD,
      r.2.mem ((c : Thread nD τ).loc main_v0_0) = G9 m c
      ∧ r.2.mem ((c : Thread nD τ).loc main_v1) = (fun _ => KLtot m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final9 m c),
      ((h c).2 main_v1 mem_v1).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).1 3).trans (((dats m 0 c).arrAt_in 3 rfl _).trans ((A_eq m c 3).trans (V_main_arg5 m c))),
      ((h c).1 8).trans (((dats m 0 c).arrAt_in 8 rfl _).trans ((A_eq m c 8).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c)))⟩)
    (run_main m ρ)

end Cert.KernelIdeal.KValue

end
-- ==== Proof.lean ====
/- The proof of `Cert.Claim` for the variational linear layer.

   The layer computes, from `x` [256, 4096] and weight-shaped arrays `μ, ρ, ε, μₚ, σₚ` [4096, 4096] and bias-shaped
   vectors `bμ, bρ, bε` [4096],
       out[b, j] = ∑ᵢ x[b, i] · (μ[j, i] + sp ρ[j, i] · ε[j, i]) + (bμ[j] + sp bρ[j] · bε[j]),
       kl        = ∑ⱼᵢ ( log (σₚ / σ) + (σ² + (μ - μₚ)²) / (2 σₚ²) - 1/2 ),   σ = sp ρ,
   with `sp` the softplus. The kernel walks an 8 × 4 grid of [512, 1024] tiles of the weight-shaped arrays, carries the
   partial product of a row of the grid in a [256, 512] accumulator and the row's partial KL sum in a [1, 1] buffer, and
   at the row's last tile writes `accumulator + bias` and, into an [8, 128] block, `partial / 1024`; the host then adds
   up the [64, 128] array of those blocks. On the extended reals sums may be regrouped freely, a change of float format
   is the identity, and 1024 copies of `s / 1024` add up to `s` for every `s`, so both programs compute the two
   formulas above: nothing here needs the inputs to be finite.

   The three frames are the generated ones (the reference's is its generated run with the results dropped); the
   idealization rewrote nothing, so `preserves` is `True`. -/
import proofs.«136558_j19774029431036_1_alg».proof.Defs
import proofs.«136558_j19774029431036_1_alg».proof.Proof.Gen.Kernel
import proofs.«136558_j19774029431036_1_alg».proof.Proof.Gen.Kernel.Skeleton
import proofs.«136558_j19774029431036_1_alg».proof.Proof.Gen.Kernel.Launch
import proofs.«136558_j19774029431036_1_alg».proof.Proof.Gen.Kernel.Points
import proofs.«136558_j19774029431036_1_alg».proof.Proof.Gen.Kernel.Frame
import proofs.«136558_j19774029431036_1_alg».proof.Proof.Gen.KernelIdeal
import proofs.«136558_j19774029431036_1_alg».proof.Proof.Gen.KernelIdeal.Skeleton
import proofs.«136558_j19774029431036_1_alg».proof.Proof.Gen.KernelIdeal.Launch
import proofs.«136558_j19774029431036_1_alg».proof.Proof.Gen.KernelIdeal.Points
import proofs.«136558_j19774029431036_1_alg».proof.Proof.Gen.KernelIdeal.Frame
import proofs.«136558_j19774029431036_1_alg».proof.Proof.Gen.ReferenceIdeal
import proofs.«136558_j19774029431036_1_alg».proof.Proof.Gen.Pre_finite_inputs
import proofs.«136558_j19774029431036_1_alg».proof.Proof.Gen.ReferenceIdeal.Run
import proofs.«136558_j19774029431036_1_alg».proof.Proof.RefStages
import proofs.«136558_j19774029431036_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the layer's output and the KL total of arguments that agree. -/
theorem algebraic : Cert.algebraic_KernelIdeal_ReferenceIdeal := by
  intro m ρ m' ρ' _ hagree
  refine ⟨fun c => Cert.KernelIdeal.KValue.G9 m c, fun c => (fun _ => Cert.KernelIdeal.KValue.KLtot m c),
    Cert.KernelIdeal.KValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v9_eq]
    funext i
    rw [Cert.ReferenceIdeal.RefValue.out_ref, a0, a1, a2, a3, a4, a5, a6]
    rfl
  · rw [Cert.ReferenceIdeal.Read.val_main_v23_eq]
    funext j
    rw [Cert.ReferenceIdeal.RefValue.kl_total_ref, a1, a2, a7, a8]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
